-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩
abbrev S2048x4096 : Shape := ⟨2, ![2048, 4096]⟩
abbrev S1x2048 : Shape := ⟨2, ![1, 2048]⟩
abbrev S256x2048 : Shape := ⟨2, ![256, 2048]⟩

abbrev nBuf : Space → Nat
  | .hbm => 8
  | .vmem => 7
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S1x4096, .f32⟩
  | .hbm, ⟨5, _⟩ => ⟨S4096x4096, .bf16⟩
  | .hbm, ⟨6, _⟩ => ⟨S16384x4096, .f32⟩
  | .hbm, ⟨7, _⟩ => ⟨S8x2048x4096, .f32⟩
  | .local _ .vmem, ⟨0, _⟩ => ⟨S256x4096, .f32⟩
  | .local _ .vmem, ⟨1, _⟩ => ⟨S256x4096, .f32⟩
  | .local _ .vmem, ⟨2, _⟩ => ⟨S2048x4096, .bf16⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x2048x4096_S16384x4096 : S8x2048x4096.ShapeCasts S16384x4096
  shapeCasts_S4096_S1x4096 : S4096.ShapeCasts S1x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  shapeCasts_S16384x4096_S8x2048x4096 : S16384x4096.ShapeCasts S8x2048x4096
  dot_S256x4096_S2048x4096_S256x2048_1_1_0_0_n_n_wf : DotDims.WF S256x4096 S2048x4096 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4096.size a ≤ S4096x4096.size a
  hwx0_1 : ∀ i : grid0.Coords, EltTy.bits .bf16 = 32 ∨ (Rect.block (s := S4096x4096) S2048x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S16384x4096.size a
  hwx0_3 : ∀ i : grid0.Coords, EltTy.bits .f32 = 32 ∨ (Rect.block (s := S16384x4096) S256x2048.size (cc0_transform_3 i) (hinb0_3 i)).WholeWords (EltTy.packing .f32)

variable [Facts₀]

def dot_S256x4096_S2048x4096_S256x2048_1_1_0_0_n_n : DotDims S256x4096 S2048x4096 S256x2048 where
  lhsContracting := [1]
  rhsContracting := [1]
  lhsNonContracting := [0]
  rhsNonContracting := [0]
  lhsBatch := []
  rhsBatch := []
  wf := dot_S256x4096_S2048x4096_S256x2048_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8x2048x4096, .f32⟩
  | .hbm, ⟨4, _⟩ => ⟨S1x1x4096, .f32⟩
  | .hbm, ⟨5, _⟩ => ⟨S8x2048x4096, .f32⟩
  | .hbm, ⟨6, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Spec.lean ====
/-
  The function both programs compute, over the extended reals.

  A dense layer: for a batch of 8 sequences of 2048 rows of 4096 features, a weight matrix of 4096 output rows by 4096
  input columns and a bias of 4096 entries,

      out[b, s, o] = (Σ_k x[b, s, k] · w[o, k]) + bias[o].

  The sum runs over the shared feature axis k; the weight is read by rows (the product is x · wᵀ).
-/
import Idealize.ShloMosaic.PureOps.Ideal
import Idealize.ShloMosaic.Lib.ValueIdx

noncomputable section

namespace Cert.Linear

open Idealize.ShloMosaic Idealize.ShloMosaic.ValueIdx

/-- The activations' shape, [8, 2048, 4096]; also the result's. -/
abbrev SX : Shape := ⟨3, ![8, 2048, 4096]⟩
/-- The weight's shape, [4096, 4096]: output row by input column. -/
abbrev SW : Shape := ⟨2, ![4096, 4096]⟩
/-- The bias's shape, [4096]. -/
abbrev SB : Shape := ⟨1, ![4096]⟩

/-- The dense layer, index by index: entry (b, s, o) is the dot product of activation row (b, s) with weight row o,
    plus bias entry o. -/
def affine (x : FVec Ideal SX .f32) (w : FVec Ideal SW .f32) (β : FVec Ideal SB .f32) : FVec Ideal SX .f32 :=
  fun i => (∑ k : Fin 4096, x (ix3 (i 0) (i 1) k) * w (ix2 (i 2) k)) + β (ix1 (i 2))

/-- The same at named coordinates. -/
theorem affine_apply (x : FVec Ideal SX .f32) (w : FVec Ideal SW .f32) (β : FVec Ideal SB .f32)
    (b : Fin 8) (s : Fin 2048) (o : Fin 4096) :
    affine x w β (ix3 b s o) = (∑ k : Fin 4096, x (ix3 b s k) * w (ix2 o k)) + β (ix1 o) := rfl

end Cert.Linear

end
-- ==== Proof.RefValue.lean ====
/-
  The reference is the dense layer.

  The reference contracts the activations' last axis with the weight's last axis (one dot_general), spreads the bias
  over the batch and row axes, and adds.  Read at an index (b, s, o) this is Σ_k x[b, s, k] · w[o, k] + bias[o]:
  the specification, term for term.
-/
import proofs.«103968_j13597866459293_2_alg».proof.Proof.Gen.ReferenceIdeal.Read
import proofs.«103968_j13597866459293_2_alg».proof.Proof.Spec

noncomputable section

namespace Cert.ReferenceIdeal.RefValue

open Cert.ReferenceIdeal Idealize.ShloMosaic Idealize.ShloMosaic.ValueIdx

/-- The reference's result, as a function of its three arguments, is the dense layer. -/
theorem result_eq (x0 : (⟨S8x2048x4096, .f32⟩ : BufTy).Contents (Elt Ideal)) (x1 : (⟨S4096x4096, .f32⟩ : BufTy).Contents (Elt Ideal))
    (x2 : (⟨S4096, .f32⟩ : BufTy).Contents (Elt Ideal)) :
    Read.val_main_v3 (F := Ideal) x0 x1 x2 = Cert.Linear.affine x0 x1 x2 := by
  funext i
  have el : ∀ k : Fin 4096, Read.lidx_main_v0 i k = ix3 (i 0) (i 1) k := fun k => funext fun a => Fin.ext (by
    match a with
    | ⟨0, _⟩ => rfl
    | ⟨1, _⟩ => rfl
    | ⟨2, _⟩ => rfl)
  have er : ∀ k : Fin 4096, Read.ridx_main_v0 i k = ix2 (i 2) k := fun k => funext fun a => Fin.ext (by
    match a with
    | ⟨0, _⟩ => rfl
    | ⟨1, _⟩ => rfl)
  have eb : Read.idx_main_v1 (Read.idx_main_v2 i) = ix1 (i 2) := funext fun a => Fin.ext (by
    match a with
    | ⟨0, _⟩ => rfl)
  rw [Read.val_main_v3_apply, Read.val_main_v0_apply, Read.val_main_v2_apply, Read.val_main_v1_apply]
  simp only [el, er, eb]
  rfl

end Cert.ReferenceIdeal.RefValue

end
-- ==== Proof.LibRowsDot.lean ====
/-
  A matrix product with the right operand given by rows.

  For a left operand of M rows by K columns and a right operand of N rows by K columns, contracted along the
  column axis of both (no batch axis), the product has entry (p, q) equal to the dot product of row p of the left
  with row q of the right:  Σ_k l[p, k] · r[q, k].  Over the extended reals the matrix unit's product into a zero
  accumulator is exactly this finite sum: no rounding, and no order of accumulation to speak of.
-/
import Idealize.ShloMosaic.Lib.ValueIdx
import Idealize.ShloMosaic.PureOps.Ideal.Laws

noncomputable section

namespace Cert.Lib

open Idealize.ShloMosaic Idealize.ShloMosaic.ValueIdx

variable {M K N : Nat}

/-- The left operand's row coordinate is the result's row. -/
theorem rowsDot_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem rowsDot_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right operand's row coordinate is the result's column. -/
theorem rowsDot_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rowsDot_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The contraction sum of a rows-by-rows product, re-indexed by the column position k < K. -/
theorem rowsDot_contr_sum (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact rowsDot_lhs_row _ _
      | ⟨1, _⟩ => exact (rowsDot_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rowsDot_rhs_row _ _
      | ⟨1, _⟩ => exact (rowsDot_rhs_col _ _).trans hk)
  rw [el, er]

/-- The matrix unit's rows-by-rows product into the zero accumulator, read at (p, q): Σ_k l[p, k] · r[q, k]. -/
theorem matmul_rowsDot_zero_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply]
  exact rowsDot_contr_sum l r p q

/-- The host's dot_general with the same dimension numbers, read at (p, q): the same sum. -/
theorem dotGeneral_rowsDot_apply {φ₁ φ₂ : FTy} (prec : Option ContractPrecision) (sched : HostSchedule)
    (l : FVec Ideal ⟨2, ![M, K]⟩ φ₁) (r : FVec Ideal ⟨2, ![N, K]⟩ φ₂) (p : Fin M) (q : Fin N) :
    FloatOps.dotGeneral (DotDims.transposedRhs M K N) prec sched l r (ix2 p q) = ∑ k : Fin K, l (ix2 p k) * r (ix2 q k) := by
  rw [Ideal.dotGeneral_apply]
  exact rowsDot_contr_sum l r p q

end Cert.Lib

end
-- ==== Proof.KernelBody.lean ====
/-
  One grid step of the kernel, read at an entry.

  A step holds a block of 256 activation rows (all 4096 features), a panel of 2048 weight rows (all 4096 features)
  and the matching 2048 bias entries as one row.  It rounds the activations to the matrix unit's input format (the
  identity on exact values), multiplies rows by rows into a zero accumulator, spreads the bias row over the 256 rows
  and adds.  Entry (p, q) of what it stores is therefore

      Σ_k xblock[p, k] · wpanel[q, k] + biasrow[0, q].
-/
import proofs.«103968_j13597866459293_2_alg».proof.Proof.Gen.KernelIdeal.Skeleton
import proofs.«103968_j13597866459293_2_alg».proof.Proof.LibRowsDot
import Idealize.ShloMosaic.Lib.ValueIdx
import Idealize.ShloMosaic.Lib.ValueLayout
import Idealize.ShloMosaic.Lib.Pipeline.Value

noncomputable section

namespace Cert.KernelIdeal.Layer

open Cert.KernelIdeal Cert.KernelIdeal.Gen Idealize.ShloMosaic Idealize.ShloMosaic.ValueIdx

/-- The step's dimension numbers are the rows-by-rows ones: both operands contracted along their feature axis. -/
theorem dot_eq : dot_S256x4096_S2048x4096_S256x2048_1_1_0_0_n_n = DotDims.transposedRhs 256 4096 2048 := rfl

/-- What a step stores, at row p and column q of its block. -/
theorem pay_apply (x0 : FVec Ideal S256x4096 .f32) (x1 : FVec Ideal S2048x4096 .bf16) (x2 : FVec Ideal S1x2048 .f32)
    (p : Fin 256) (q : Fin 2048) :
    k0_pay1 (F := Ideal) x0 x1 x2 (ix2 p q)
      = (∑ k : Fin 4096, x0 (ix2 p k) * x1 (ix2 q k)) + x2 (ix2 (0 : Fin 1) q) := by
  unfold k0_pay1
  simp only [shapeCast_self]
  rw [addf_apply, dot_eq]
  refine congrArg₂ (· + ·) ?_ ?_
  · exact Cert.Lib.matmul_rowsDot_zero_apply none (truncf .bf16 x0 bitsLt_bf16_f32) x1 p q
  · exact broadcastTo_1b_ab_apply x2 broadcasts_S1x2048_S256x2048 p q

end Cert.KernelIdeal.Layer

end
-- ==== Proof.LibLayoutReads.lean ====
/-
  Arrays laid side by side, cut, and re-shaped, read at an index given by coordinates.

  Three matrices with the same number of rows laid side by side form one wide matrix: column c of the wide matrix is
  column c of the first piece while c is below the first piece's width, then column c − n0 of the second, then column
  c − n0 − n1 of the third.  Three vectors laid end to end behave the same way along their one axis.

  A stack of P matrices of S rows each is, row-major, one matrix of P·S rows: row p·S + s of the flat matrix is row s of
  matrix p, in both directions of the re-shaping.  A cut along the last axis of a rank-3 array starting at column o reads
  column o + j of the source at column j.  A matrix (or a vector) that was padded only at the high end of its last axis
  still reads the original entries at the original coordinates.
-/
import Idealize.ShloMosaic.Lib.ValueIdx
import Idealize.ShloMosaic.Lib.ValueLayout
import Idealize.ShloMosaic.Lib.Pipeline.Value
import Idealize.ShloMosaic.Lib.KernelVsHost

namespace Cert.Lib

open Idealize.ShloMosaic Idealize.ShloMosaic.ValueIdx

variable {α : Type}

/-! ## Three matrices side by side -/

/-- The wide matrix at a column of the first piece. -/
theorem concat3_cols_fst {A n0 n1 n2 N : Nat} (x0 : (⟨2, ![A, n0]⟩ : Shape).Idx → α) (x1 : (⟨2, ![A, n1]⟩ : Shape).Idx → α)
    (x2 : (⟨2, ![A, n2]⟩ : Shape).Idx → α)
    (h : Shape.Concatenates [(⟨2, ![A, n0]⟩ : Shape), ⟨2, ![A, n1]⟩, ⟨2, ![A, n2]⟩] ⟨2, ![A, N]⟩ 1)
    (d : Fin A) (q : Fin n0) (c : Fin N) (hc : c.val = q.val) :
    concatenate ⟨2, ![A, N]⟩ 1 [⟨⟨2, ![A, n0]⟩, x0⟩, ⟨⟨2, ![A, n1]⟩, x1⟩, ⟨⟨2, ![A, n2]⟩, x2⟩] h (ix2 d c) = x0 (ix2 d q) :=
  concatenate_apply_piece (t := ⟨2, ![A, N]⟩) (1 : Fin 2) [⟨⟨2, ![A, n0]⟩, x0⟩, ⟨⟨2, ![A, n1]⟩, x1⟩, ⟨⟨2, ![A, n2]⟩, x2⟩] h (ix2 d c) 0 (by simp) ⟨2, ![A, n0]⟩ x0 rfl rfl 0 rfl (ix2 d q)
    (fun b => match b with
      | ⟨0, _⟩ => fun _ => rfl
      | ⟨1, _⟩ => fun hb => absurd rfl hb)
    (by show 0 + q.val = c.val; omega)

/-- The wide matrix at a column of the second piece. -/
theorem concat3_cols_snd {A n0 n1 n2 N : Nat} (x0 : (⟨2, ![A, n0]⟩ : Shape).Idx → α) (x1 : (⟨2, ![A, n1]⟩ : Shape).Idx → α)
    (x2 : (⟨2, ![A, n2]⟩ : Shape).Idx → α)
    (h : Shape.Concatenates [(⟨2, ![A, n0]⟩ : Shape), ⟨2, ![A, n1]⟩, ⟨2, ![A, n2]⟩] ⟨2, ![A, N]⟩ 1)
    (d : Fin A) (q : Fin n1) (c : Fin N) (hc : c.val = n0 + q.val) :
    concatenate ⟨2, ![A, N]⟩ 1 [⟨⟨2, ![A, n0]⟩, x0⟩, ⟨⟨2, ![A, n1]⟩, x1⟩, ⟨⟨2, ![A, n2]⟩, x2⟩] h (ix2 d c) = x1 (ix2 d q) :=
  concatenate_apply_piece (t := ⟨2, ![A, N]⟩) (1 : Fin 2) [⟨⟨2, ![A, n0]⟩, x0⟩, ⟨⟨2, ![A, n1]⟩, x1⟩, ⟨⟨2, ![A, n2]⟩, x2⟩] h (ix2 d c) 1 (by simp) ⟨2, ![A, n1]⟩ x1 rfl rfl (n0 + 0) rfl (ix2 d q)
    (fun b => match b with
      | ⟨0, _⟩ => fun _ => rfl
      | ⟨1, _⟩ => fun hb => absurd rfl hb)
    (by show n0 + 0 + q.val = c.val; omega)

/-- The wide matrix at a column of the third piece. -/
theorem concat3_cols_thd {A n0 n1 n2 N : Nat} (x0 : (⟨2, ![A, n0]⟩ : Shape).Idx → α) (x1 : (⟨2, ![A, n1]⟩ : Shape).Idx → α)
    (x2 : (⟨2, ![A, n2]⟩ : Shape).Idx → α)
    (h : Shape.Concatenates [(⟨2, ![A, n0]⟩ : Shape), ⟨2, ![A, n1]⟩, ⟨2, ![A, n2]⟩] ⟨2, ![A, N]⟩ 1)
    (d : Fin A) (q : Fin n2) (c : Fin N) (hc : c.val = n0 + n1 + q.val) :
    concatenate ⟨2, ![A, N]⟩ 1 [⟨⟨2, ![A, n0]⟩, x0⟩, ⟨⟨2, ![A, n1]⟩, x1⟩, ⟨⟨2, ![A, n2]⟩, x2⟩] h (ix2 d c) = x2 (ix2 d q) :=
  concatenate_apply_piece (t := ⟨2, ![A, N]⟩) (1 : Fin 2) [⟨⟨2, ![A, n0]⟩, x0⟩, ⟨⟨2, ![A, n1]⟩, x1⟩, ⟨⟨2, ![A, n2]⟩, x2⟩] h (ix2 d c) 2 (by simp) ⟨2, ![A, n2]⟩ x2 rfl rfl (n0 + (n1 + 0)) rfl (ix2 d q)
    (fun b => match b with
      | ⟨0, _⟩ => fun _ => rfl
      | ⟨1, _⟩ => fun hb => absurd rfl hb)
    (by show n0 + (n1 + 0) + q.val = c.val; omega)

/-! ## Three vectors end to end -/

/-- The long vector at an entry of the first piece. -/
theorem concat3_vec_fst {n0 n1 n2 N : Nat} (x0 : (⟨1, ![n0]⟩ : Shape).Idx → α) (x1 : (⟨1, ![n1]⟩ : Shape).Idx → α)
    (x2 : (⟨1, ![n2]⟩ : Shape).Idx → α)
    (h : Shape.Concatenates [(⟨1, ![n0]⟩ : Shape), ⟨1, ![n1]⟩, ⟨1, ![n2]⟩] ⟨1, ![N]⟩ 0)
    (q : Fin n0) (c : Fin N) (hc : c.val = q.val) :
    concatenate ⟨1, ![N]⟩ 0 [⟨⟨1, ![n0]⟩, x0⟩, ⟨⟨1, ![n1]⟩, x1⟩, ⟨⟨1, ![n2]⟩, x2⟩] h (ix1 c) = x0 (ix1 q) :=
  concatenate_apply_piece (t := ⟨1, ![N]⟩) (0 : Fin 1) [⟨⟨1, ![n0]⟩, x0⟩, ⟨⟨1, ![n1]⟩, x1⟩, ⟨⟨1, ![n2]⟩, x2⟩] h (ix1 c) 0 (by simp) ⟨1, ![n0]⟩ x0 rfl rfl 0 rfl (ix1 q)
    (fun b => match b with
      | ⟨0, _⟩ => fun hb => absurd rfl hb)
    (by show 0 + q.val = c.val; omega)

/-- The long vector at an entry of the second piece. -/
theorem concat3_vec_snd {n0 n1 n2 N : Nat} (x0 : (⟨1, ![n0]⟩ : Shape).Idx → α) (x1 : (⟨1, ![n1]⟩ : Shape).Idx → α)
    (x2 : (⟨1, ![n2]⟩ : Shape).Idx → α)
    (h : Shape.Concatenates [(⟨1, ![n0]⟩ : Shape), ⟨1, ![n1]⟩, ⟨1, ![n2]⟩] ⟨1, ![N]⟩ 0)
    (q : Fin n1) (c : Fin N) (hc : c.val = n0 + q.val) :
    concatenate ⟨1, ![N]⟩ 0 [⟨⟨1, ![n0]⟩, x0⟩, ⟨⟨1, ![n1]⟩, x1⟩, ⟨⟨1, ![n2]⟩, x2⟩] h (ix1 c) = x1 (ix1 q) :=
  concatenate_apply_piece (t := ⟨1, ![N]⟩) (0 : Fin 1) [⟨⟨1, ![n0]⟩, x0⟩, ⟨⟨1, ![n1]⟩, x1⟩, ⟨⟨1, ![n2]⟩, x2⟩] h (ix1 c) 1 (by simp) ⟨1, ![n1]⟩ x1 rfl rfl (n0 + 0) rfl (ix1 q)
    (fun b => match b with
      | ⟨0, _⟩ => fun hb => absurd rfl hb)
    (by show n0 + 0 + q.val = c.val; omega)

/-- The long vector at an entry of the third piece. -/
theorem concat3_vec_thd {n0 n1 n2 N : Nat} (x0 : (⟨1, ![n0]⟩ : Shape).Idx → α) (x1 : (⟨1, ![n1]⟩ : Shape).Idx → α)
    (x2 : (⟨1, ![n2]⟩ : Shape).Idx → α)
    (h : Shape.Concatenates [(⟨1, ![n0]⟩ : Shape), ⟨1, ![n1]⟩, ⟨1, ![n2]⟩] ⟨1, ![N]⟩ 0)
    (q : Fin n2) (c : Fin N) (hc : c.val = n0 + n1 + q.val) :
    concatenate ⟨1, ![N]⟩ 0 [⟨⟨1, ![n0]⟩, x0⟩, ⟨⟨1, ![n1]⟩, x1⟩, ⟨⟨1, ![n2]⟩, x2⟩] h (ix1 c) = x2 (ix1 q) :=
  concatenate_apply_piece (t := ⟨1, ![N]⟩) (0 : Fin 1) [⟨⟨1, ![n0]⟩, x0⟩, ⟨⟨1, ![n1]⟩, x1⟩, ⟨⟨1, ![n2]⟩, x2⟩] h (ix1 c) 2 (by simp) ⟨1, ![n2]⟩ x2 rfl rfl (n0 + (n1 + 0)) rfl (ix1 q)
    (fun b => match b with
      | ⟨0, _⟩ => fun hb => absurd rfl hb)
    (by show n0 + (n1 + 0) + q.val = c.val; omega)

/-! ## Padding at the high end of the last axis, read inside the original -/

/-- A matrix padded with extra columns on the right reads its own entry at a column it already had. -/
theorem pad_cols_inside {A C C' hc : Nat} (x : (⟨2, ![A, C]⟩ : Shape).Idx → α) {u : Shape} (v : u.Idx → α)
    (h : (⟨2, ![A, C]⟩ : Shape).Pads ![0, 0] ![0, hc] ![0, 0] ⟨2, ![A, C']⟩) (hu : 0 < u.numel)
    (p : Fin A) (n : Fin C) (q : Fin C') (hq : q.val = n.val) :
    pad ⟨2, ![A, C']⟩ ![0, 0] ![0, hc] ![0, 0] x v h hu (ix2 p q) = x (ix2 p n) :=
  pad_apply_of_inside _ _ _ x v h hu (ix2 p q) (ix2 p n) fun a => by
    match a with
    | ⟨0, _⟩ => show p.val = 0 + p.val * (0 + 1); omega
    | ⟨1, _⟩ => show q.val = 0 + n.val * (0 + 1); omega

/-- A vector padded with extra entries at its end reads its own entry at a position it already had. -/
theorem pad_vec_inside {C C' hc : Nat} (x : (⟨1, ![C]⟩ : Shape).Idx → α) {u : Shape} (v : u.Idx → α)
    (h : (⟨1, ![C]⟩ : Shape).Pads ![0] ![hc] ![0] ⟨1, ![C']⟩) (hu : 0 < u.numel)
    (n : Fin C) (q : Fin C') (hq : q.val = n.val) :
    pad ⟨1, ![C']⟩ ![0] ![hc] ![0] x v h hu (ix1 q) = x (ix1 n) :=
  pad_apply_of_inside _ _ _ x v h hu (ix1 q) (ix1 n) fun a => by
    match a with
    | ⟨0, _⟩ => show q.val = 0 + n.val * (0 + 1); omega

/-! ## A stack of matrices and the one tall matrix with the same rows -/

/-- The stack `[P, S, K]` flattened to `[R, K]` reads, at row `r = p·S + s`, row `s` of matrix `p`. -/
theorem shapeCast_merge_rows_apply {P S K R : Nat} (x : (⟨3, ![P, S, K]⟩ : Shape).Idx → α)
    (h : (⟨3, ![P, S, K]⟩ : Shape).ShapeCasts ⟨2, ![R, K]⟩) (p : Fin P) (s : Fin S) (d : Fin K) (r : Fin R)
    (hr : r.val = p.val * S + s.val) :
    shapeCast ⟨2, ![R, K]⟩ x h (ix2 r d) = x (ix3 p s d) :=
  shapeCast_apply x h _ _ (by
    rw [Shape.rowMajor_val_three, Shape.rowMajor_val_two]
    show (p.val * S + s.val) * K + d.val = r.val * K + d.val
    rw [hr])

/-- The tall matrix `[R, C]` cut into a stack `[P, S, C]` reads, at row `s` of matrix `p`, its row `r = p·S + s`. -/
theorem shapeCast_split_rows_apply {P S C R : Nat} (x : (⟨2, ![R, C]⟩ : Shape).Idx → α)
    (h : (⟨2, ![R, C]⟩ : Shape).ShapeCasts ⟨3, ![P, S, C]⟩) (p : Fin P) (s : Fin S) (c : Fin C) (r : Fin R)
    (hr : r.val = p.val * S + s.val) :
    shapeCast ⟨3, ![P, S, C]⟩ x h (ix3 p s c) = x (ix2 r c) :=
  shapeCast_apply x h _ _ (by
    rw [Shape.rowMajor_val_two, Shape.rowMajor_val_three]
    show r.val * C + c.val = (p.val * S + s.val) * C + c.val
    rw [hr])

/-! ## A cut along the last axis of a rank-3 array -/

/-- A rank-3 array cut along its last axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.Lib
-- ==== Proof.KernelValue.lean ====
/-
  The kernel's result array is the dense layer.

  Around the grid the program flattens the activations [8, 2048, 4096] to 16384 rows, turns the bias into one row
  [1, 4096], rounds the weight to the matrix unit's input format (the identity on exact values), and at the end
  cuts the 16384 result rows back into 8 stacks of 2048.

  The grid has 2 × 64 steps.  Step (jo, mi) holds activation rows 256·mi … 256·mi + 255, weight rows (= output
  columns) 2048·jo … 2048·jo + 2047 with their bias entries, and writes the block of the flat result at those rows and
  columns.  Each entry of a step's block is the dot product of one activation row with one weight row plus a bias
  entry, so the block is a block of ONE function of the flat arrays; the blocks tile the flat result, so the whole flat
  result is that function; and row 2048·b + s of the flat result is row s of stack b.
-/
import proofs.«103968_j13597866459293_2_alg».proof.Proof.Gen.KernelIdeal.Frame
import proofs.«103968_j13597866459293_2_alg».proof.Proof.KernelBody
import proofs.«103968_j13597866459293_2_alg».proof.Proof.LibLayoutReads
import proofs.«103968_j13597866459293_2_alg».proof.Proof.Spec
import Idealize.ShloMosaic.Lib.Pipeline.Value
import Idealize.ShloMosaic.Lib.StableHlo.Run

noncomputable section

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The flat layer -/

/-- The layer on flat arrays: entry (r, o) is the dot product of flat activation row r with weight row o, plus entry o
    of the bias row. -/
def rowsAffine (X : FVec Ideal S16384x4096 .f32) (Wt : FVec Ideal S4096x4096 .bf16) (B : FVec Ideal S1x4096 .f32) :
    FVec Ideal S16384x4096 .f32 :=
  fun j => (∑ k : Fin 4096, X (ix2 (j 0) k) * Wt (ix2 (j 1) k)) + B (ix2 (0 : Fin 1) (j 1))

/-- An entry of a step's stored block is an entry of the flat layer, once each of the step's three blocks is known to
    hold the rows of the flat arrays that the entry needs. -/
theorem block_entry (X : FVec Ideal S16384x4096 .f32) (Wt : FVec Ideal S4096x4096 .bf16) (B : FVec Ideal S1x4096 .f32)
    (x0 : FVec Ideal S256x4096 .f32) (x1 : FVec Ideal S2048x4096 .bf16) (x2 : FVec Ideal S1x2048 .f32)
    (y : S256x2048.Idx) (i : S16384x4096.Idx)
    (h0 : ∀ k : Fin 4096, x0 (ix2 (y 0) k) = X (ix2 (i 0) k))
    (h1 : ∀ k : Fin 4096, x1 (ix2 (y 1) k) = Wt (ix2 (i 1) k))
    (h2 : x2 (ix2 (0 : Fin 1) (y 1)) = B (ix2 (0 : Fin 1) (i 1))) :
    k0_pay1 (F := Ideal) x0 x1 x2 y = rowsAffine X Wt B i :=
  calc k0_pay1 (F := Ideal) x0 x1 x2 y
      = k0_pay1 (F := Ideal) x0 x1 x2 (ix2 (y 0) (y 1)) := congrArg _ (eq_ix2 y)
    _ = (∑ k : Fin 4096, x0 (ix2 (y 0) k) * x1 (ix2 (y 1) k)) + x2 (ix2 (0 : Fin 1) (y 1)) := pay_apply x0 x1 x2 (y 0) (y 1)
    _ = rowsAffine X Wt B i := by
        unfold rowsAffine
        rw [h2]
        exact congrArg (· + B (ix2 (0 : Fin 1) (i 1))) (Finset.sum_congr rfl fun k _ => by rw [h0 k, h1 k])

/-! ## Which rows a step holds -/

theorem hz : (![0, 0] : Fin 2 → Nat) = fun _ => 0 := funext fun a => by fin_cases a <;> rfl

/-- The block numbers of the four windows at a step, decided over the 128 steps: the activation block's row number is
    the result block's row number; the weight panel's and the bias row's numbers are the result block's column number;
    every other block number is 0. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 63 ∧ win0_3.index t (1 : Fin 2) ≤ 1 :=
  (by decide +kernel : ∀ t : Fin grid0.N, _)

/-- Every block of the flat result is some step's. -/
theorem idx_onto : ∀ (q0 : Fin 64) (q1 : Fin 2), ∃ t : Fin cfg0.N, win0_3.index t = ![q0.val, q1.val] :=
  (by decide +kernel : ∀ (q0 : Fin 64) (q1 : Fin 2), ∃ t : Fin grid0.N, win0_3.index t = ![q0.val, q1.val])

/-! ## What a step writes back -/

/-- Step t writes back block t of the flat layer of the arrays as the grid finds them. -/
theorem flushed_eq (c : Dev nD) (t : Fin cfg0.N) :
    (dats m 0 c).flushed 3 t
      = ((cfg0.win 3).blk t).view.read (Elt Ideal) (rowsAffine (V m c main_v0) (V m c main_v2) (V m c main_v1)) := by
  show (cfg0.win 3).cut (grid0.coords t) ((dats m 0 c).after 3 t) = _
  rw [after0_3]
  unfold out0_3
  rw [View.canon_unit_zero hz]
  simp only [View.ld_unit_zero (S := S256x4096) hz, View.ld_unit_zero (S := S2048x4096) hz, View.ld_unit_zero (S := S1x2048) hz]
  obtain ⟨e0, e1, e2, e3, e4, e5, -, -⟩ := idx_facts t
  funext y
  refine block_entry (V m c main_v0) (V m c main_v2) (V m c main_v1) (iblk m c 0 t) (iblk m c 1 t) (iblk m c 2 t) y
    (((cfg0.win 3).blk t).view.emb y) ?_ ?_ ?_
  · intro k
    show V m c main_v0 (((cfg0.win 0).blk t).view.emb (ix2 (y 0) k)) = V m c main_v0 (ix2 ((((cfg0.win 3).blk t).view.emb y) 0) k)
    refine congrArg (V m c main_v0) (funext fun a => Fin.ext ?_)
    match a with
    | ⟨0, _⟩ => show win0_0.index t (0 : Fin 2) * 256 + 1 * (y 0).val = win0_3.index t (0 : Fin 2) * 256 + 1 * (y 0).val; rw [e0]
    | ⟨1, _⟩ => show win0_0.index t (1 : Fin 2) * 4096 + 1 * k.val = k.val; rw [e1]; omega
  · intro k
    show V m c main_v2 (((cfg0.win 1).blk t).view.emb (ix2 (y 1) k)) = V m c main_v2 (ix2 ((((cfg0.win 3).blk t).view.emb y) 1) k)
    refine congrArg (V m c main_v2) (funext fun a => Fin.ext ?_)
    match a with
    | ⟨0, _⟩ => show win0_1.index t (0 : Fin 2) * 2048 + 1 * (y 1).val = win0_3.index t (1 : Fin 2) * 2048 + 1 * (y 1).val; rw [e2]
    | ⟨1, _⟩ => show win0_1.index t (1 : Fin 2) * 4096 + 1 * k.val = k.val; rw [e3]; omega
  · show V m c main_v1 (((cfg0.win 2).blk t).view.emb (ix2 (0 : Fin 1) (y 1))) = V m c main_v1 (ix2 (0 : Fin 1) ((((cfg0.win 3).blk t).view.emb y) 1))
    refine congrArg (V m c main_v1) (funext fun a => Fin.ext ?_)
    match a with
    | ⟨0, _⟩ => show win0_2.index t (0 : Fin 2) * 1 + 1 * 0 = 0; rw [e4]
    | ⟨1, _⟩ => show win0_2.index t (1 : Fin 2) * 2048 + 1 * (y 1).val = win0_3.index t (1 : Fin 2) * 2048 + 1 * (y 1).val; rw [e5]

/-! ## The blocks tile the flat result -/

/-- An entry of the flat result is in step t's block iff each coordinate is in the block's range on its axis. -/
theorem mem_blk (t : Fin cfg0.N) (i : S16384x4096.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v3).slice (win0_3.rect t)).set ↔ _
  rw [View.set_slice_whole, Rect.mem_set_unit]
  exact Iff.rfl

/-- Entry (r, o) lies in the block of the step whose result block has row number r / 256 and column number o / 2048. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := idx_onto ⟨(i 0).val / 256, by omega⟩ ⟨(i 1).val / 2048, by omega⟩
  have q0 : win0_3.index t (0 : Fin 2) = (i 0).val / 256 := congrFun ht 0
  have q1 : win0_3.index t (1 : Fin 2) = (i 1).val / 2048 := congrFun ht 1
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

/-- The flat result after the grid is the flat layer of the arrays as the grid found them. -/
theorem final (c : Dev nD) :
    (dats m 0 c).arrAt 3 cfg0.N = rowsAffine (V m c main_v0) (V m c main_v2) (V m c main_v1) :=
  (dats m 0 c).arrAt_eq_of_cover 3 (rowsAffine (V m c main_v0) (V m c main_v2) (V m c main_v1))
    (fun t _ => flushed_eq m c t) cover

end Cert.KernelIdeal.Layer

end
-- ==== Proof.KernelRun.lean ====
/-
  The kernel program's run, with its result named.

  Before the grid the program flattens the activations to 16384 rows (flat row 2048·b + s is row s of stack b), makes
  the bias a single row, and rounds the weight (the identity on exact values); after the grid it cuts the flat result
  back into 8 stacks of 2048 rows.  With the flat result known to be the flat layer of those arrays, the program's
  result at (b, s, o) is Σ_k x[b, s, k] · w[o, k] + bias[o].
-/
import proofs.«103968_j13597866459293_2_alg».proof.Proof.KernelValue

noncomputable section

namespace Cert.KernelIdeal.Layer

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the grid finds -/

/-- The flat activations are the launched activations, flattened. -/
theorem entry_x (c : Dev nD) : (V m c main_v0 : S16384x4096.Idx → EReal)
    = shapeCast S16384x4096 (m ((c : Thread nD τ).loc main_arg0)) shapeCasts_S8x2048x4096_S16384x4096 := by
  show StableHlo.after hostOps0 (fun b => m (c, b)) (Proc.devRef .tc main_v0) = _
  after_results
  rfl

/-- The bias row is the launched bias, as one row. -/
theorem entry_b (c : Dev nD) : (V m c main_v1 : S1x4096.Idx → EReal)
    = shapeCast S1x4096 (m ((c : Thread nD τ).loc main_arg2)) shapeCasts_S4096_S1x4096 := by
  show StableHlo.after hostOps0 (fun b => m (c, b)) (Proc.devRef .tc main_v1) = _
  after_results
  rfl

/-- The rounded weight is the launched weight. -/
theorem entry_w (c : Dev nD) : (V m c main_v2 : S4096x4096.Idx → EReal)
    = truncf (F := Ideal) .bf16 (m ((c : Thread nD τ).loc main_arg1)) bitsLt_bf16_f32 := by
  show StableHlo.after hostOps0 (fun b => m (c, b)) (Proc.devRef .tc main_v2) = _
  after_results

/-! ## The result -/

/-- The flat layer of the flattened arrays, cut back into stacks, is the dense layer of the launched arrays. -/
theorem split_rowsAffine (x : FVec Ideal S8x2048x4096 .f32) (w : FVec Ideal S4096x4096 .f32) (β : FVec Ideal S4096 .f32) :
    shapeCast S8x2048x4096
        (rowsAffine (shapeCast S16384x4096 x shapeCasts_S8x2048x4096_S16384x4096) (truncf (F := Ideal) .bf16 w bitsLt_bf16_f32)
          (shapeCast S1x4096 β shapeCasts_S4096_S1x4096))
        shapeCasts_S16384x4096_S8x2048x4096
      = Cert.Linear.affine x w β := by
  funext i
  obtain ⟨b, s, o, rfl⟩ : ∃ (b : Fin 8) (s : Fin 2048) (o : Fin 4096), i = ix3 b s o := ⟨i 0, i 1, i 2, eq_ix3 i⟩
  have hr : b.val * 2048 + s.val < 16384 := by have := b.isLt; have := s.isLt; omega
  rw [Cert.Lib.shapeCast_split_rows_apply _ shapeCasts_S16384x4096_S8x2048x4096 b s o ⟨b.val * 2048 + s.val, hr⟩ rfl,
    Cert.Linear.affine_apply]
  unfold rowsAffine
  refine congrArg₂ (· + ·) (Finset.sum_congr rfl fun k _ => congrArg₂ (· * ·) ?_ rfl) ?_
  · exact Cert.Lib.shapeCast_merge_rows_apply x shapeCasts_S8x2048x4096_S16384x4096 b s k ⟨b.val * 2048 + s.val, hr⟩ rfl
  · exact shapeCast_a_1a_apply β shapeCasts_S4096_S1x4096 (0 : Fin 1) o

/-- The program's result buffer after the lines that follow the grid. -/
theorem result_eq (c : Dev nD) :
    Pipeline.afterTail₀ cfgs (dats m) 0 (V0 m) [hostOps1] c main_v4
      = Cert.Linear.affine (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  rw [(Pipeline.withArrays_arr spec0 launch0.win.arr_inj c _ _ 3).trans (final m c), entry_x, entry_b, entry_w]
  exact split_rowsAffine _ _ _

/-! ## The run -/

/-- Every weakly fair execution of the kernel program terminates with the result buffer at the dense layer of the
    launched arrays and the three argument arrays unchanged. -/
theorem run : θ_run defs (onTc (τ := τ) (main (F := Ideal))) ⟨m, fun _ => 0, ρ⟩ fun r => ∀ c : Dev nD,
      r.2.mem ((c.tc : Thread nD τ).loc main_v4)
        = Cert.Linear.affine (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Layer

end
-- ==== Proof.lean ====
/-
  A dense layer on the matrix unit against its einsum reference: out[b, s, o] = Σ_k x[b, s, k] · w[o, k] + bias[o]
  over x : [8, 2048, 4096], w : [4096, 4096], bias : [4096].

  The kernel program flattens the activations to 16384 rows, runs a grid of 2 × 64 steps — each step multiplies a block
  of 256 activation rows by a panel of 2048 weight rows (rows by rows, over the whole feature axis, into a zero
  accumulator) and adds the panel's bias entries — and cuts the flat result back into 8 stacks of 2048 rows.  The
  reference contracts the feature axis of the activations with that of the weight in one product and adds the bias
  spread over batch and rows.

  Over the extended reals the rounding of the operands to the matrix unit's input format is the identity and both
  products are the same finite sum over the feature axis, term for term, so both programs compute one function
  (Proof/Spec.lean).  No algebraic law beyond reading each side at an index is needed, and in particular nothing about
  finiteness of the inputs: the precondition is never opened.

  The modules: Proof/Spec.lean states the function; Proof/RefValue.lean reads the reference's operations at an index;
  Proof/LibRowsDot.lean reads a rows-by-rows matrix product at an index; Proof/KernelBody.lean reads one grid step at an
  entry; Proof/KernelValue.lean shows that each step's block is a block of one function of the flat arrays and that
  the blocks tile the flat result; Proof/KernelRun.lean reads the re-shapings around the grid and names the result of
  the kernel program's run.  The three frames are the generated runs; the idealization rewrote nothing.
-/
import proofs.«103968_j13597866459293_2_alg».proof.Defs
import proofs.«103968_j13597866459293_2_alg».proof.Proof.Gen.Kernel
import proofs.«103968_j13597866459293_2_alg».proof.Proof.Gen.Kernel.Frame
import proofs.«103968_j13597866459293_2_alg».proof.Proof.Gen.KernelIdeal
import proofs.«103968_j13597866459293_2_alg».proof.Proof.Gen.KernelIdeal.Frame
import proofs.«103968_j13597866459293_2_alg».proof.Proof.Gen.ReferenceIdeal
import proofs.«103968_j13597866459293_2_alg».proof.Proof.Gen.Pre_finite_inputs
import proofs.«103968_j13597866459293_2_alg».proof.Proof.Gen.ReferenceIdeal.Run
import proofs.«103968_j13597866459293_2_alg».proof.Proof.Gen.ReferenceIdeal.Read
import proofs.«103968_j13597866459293_2_alg».proof.Proof.RefValue
import proofs.«103968_j13597866459293_2_alg».proof.Proof.KernelRun

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the kernel program over the extended reals. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel program over the extended reals rewrote no operation: there is nothing to preserve. -/
theorem preserves : Cert.preserves_Kernel_KernelIdeal := trivial

/-- From memories that agree on the three arguments both programs end with the dense layer of those arguments in
    their result buffers. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
